-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x256 : Shape := ⟨2, ![1024, 256]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S65536x1024 .f32) (main_arg1 : FVec F S1024x256 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S65536x1024 : Shape := ⟨2, ![65536, 1024]⟩
abbrev S1024x256 : Shape := ⟨2, ![1024, 256]⟩
abbrev S65536x256 : Shape := ⟨2, ![65536, 256]⟩
abbrev S4096x1024 : Shape := ⟨2, ![4096, 1024]⟩
abbrev S4096x256 : Shape := ⟨2, ![4096, 256]⟩

abbrev nBuf : Space → Nat
  | .hbm => 5
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x256, .f32⟩
  | .hbm, ⟨2, _⟩ => ⟨S1024x256, .f32⟩
  | .hbm, ⟨3, _⟩ => ⟨S1024x256, .bf16⟩
  | .hbm, ⟨4, _⟩ => ⟨S65536x256, .f32⟩
  | .local _ .vmem, ⟨0, _⟩ => ⟨S4096x1024, .f32⟩
  | .local _ .vmem, ⟨1, _⟩ => ⟨S4096x1024, .f32⟩
  | .local _ .vmem, ⟨2, _⟩ => ⟨S1024x256, .bf16⟩
  | .local _ .vmem, ⟨3, _⟩ => ⟨S4096x256, .f32⟩
  | .local _ .vmem, ⟨4, _⟩ => ⟨S4096x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S4096x1024_S4096x1024_0_0 : ∀ a, (![0, 0] : Fin 2 → Nat) a + S4096x1024.size a ≤ S4096x1024.size a
  h_S4096x1024 : 0 < S4096x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4096x256_S4096x256_0_0 : ∀ a, (![0, 0] : Fin 2 → Nat) a + S4096x256.size a ≤ S4096x256.size a
  h_S4096x256 : 0 < S4096x256.numel
  dot_S4096x1024_S1024x256_S4096x256_1_0_0_1_n_n_wf : DotDims.WF S4096x1024 S1024x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S65536x1024.size a
  hwx0_0 : ∀ i : grid0.Coords, EltTy.bits .f32 = 32 ∨ (Rect.block (s := S65536x1024) S4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S65536x256.size a
  hwx0_2 : ∀ i : grid0.Coords, EltTy.bits .f32 = 32 ∨ (Rect.block (s := S65536x256) S4096x256.size (cc0_transform_2 i) (hinb0_2 i)).WholeWords (EltTy.packing .f32)

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf

abbrev win0_0 : Pipeline.Window sig grid0 :=
  Pipeline.Window.ofSpec (Memref.whole main_arg0) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x256 : Shape := ⟨2, ![1024, 256]⟩
abbrev S65536x256 : Shape := ⟨2, ![65536, 256]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x256, .f32⟩
  | .hbm, ⟨2, _⟩ => ⟨S1024x256, .f32⟩
  | .hbm, ⟨3, _⟩ => ⟨S65536x256, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S65536x1024_S1024x256_S65536x256_1_0_0_1_n_n_wf : DotDims.WF S65536x1024 S1024x256 S65536x256 [1] [0] [0] [1] [] []

variable [Facts₀]

def dot_S65536x1024_S1024x256_S65536x256_1_0_0_1_n_n : DotDims S65536x1024 S1024x256 S65536x256 where
  lhsContracting := [1]
  rhsContracting := [0]
  lhsNonContracting := [0]
  rhsNonContracting := [1]
  lhsBatch := []
  rhsBatch := []
  wf := dot_S65536x1024_S1024x256_S65536x256_1_0_0_1_n_n_wf

class Facts : Prop extends Facts₀ where

variable [Facts]
-- ==== Proof.Payload.lean ====
/-
  The kernel body's arithmetic at one entry of its output block.

  The body forms, from a 4096 x 1024 block of x and the 1024 x 256 weight block, two matrix products into a zero
  accumulator — the block itself against the weights, and the residual (block minus block) against the weights — and
  adds them. With exact arithmetic a change of number format is the identity, so entry (p, q) is
    sum_k x(p,k) * w(k,q)  +  sum_k (x(p,k) - x(p,k)) * w(k,q).
-/
import proofs.«130292_j35923106464285_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.BinaryDense

open Idealize.ShloMosaic Idealize.ShloMosaic.ValueIdx Cert.KernelIdeal
open scoped BigOperators

/-- One matrix product into the zero accumulator, at entry (p, q): the sum over the contracted position `k` of the
    left operand at (p, k) times the right operand at (k, q). -/
theorem matmul_zero_apply (l : FVec Ideal S4096x1024 .bf16) (r : FVec Ideal S1024x256 .bf16) (p : Fin 4096) (q : Fin 256) :
    matmul dot_S4096x1024_S1024x256_S4096x256_1_0_0_1_n_n none l r (constant S4096x256 .f32 0x00000000#32) (ix2 p q)
      = ∑ k : Fin 1024, l (ix2 p k) * r (ix2 k q) := by
  simp only [matmul]
  rw [Ideal.matmul_constant_zero_apply,
    ← Equiv.sum_comp (contrEquiv1 dot_S4096x1024_S1024x256_S4096x256_1_0_0_1_n_n 1024 rfl rfl).symm]
  refine Finset.sum_congr rfl fun k _ => ?_
  have hk := contrEquiv1_symm_val dot_S4096x1024_S1024x256_S4096x256_1_0_0_1_n_n 1024 rfl rfl k
  have el : dot_S4096x1024_S1024x256_S4096x256_1_0_0_1_n_n.lhsIdx (ix2 p q)
      ((contrEquiv1 dot_S4096x1024_S1024x256_S4096x256_1_0_0_1_n_n 1024 rfl rfl).symm k) = ix2 p k :=
    funext fun a => Fin.ext (by
      match a with
      | ⟨0, _⟩ =>
        show (dot_S4096x1024_S1024x256_S4096x256_1_0_0_1_n_n.lhsIdx (ix2 p q) _ 0).val = p.val
        unfold DotDims.lhsIdx
        rw [dif_neg (show ¬(0 : Fin S4096x1024.rank) ∈ dot_S4096x1024_S1024x256_S4096x256_1_0_0_1_n_n.lhsBatch by decide),
          dif_pos (show (0 : Fin S4096x1024.rank) ∈ dot_S4096x1024_S1024x256_S4096x256_1_0_0_1_n_n.lhsNonContracting by decide)]
        rfl
      | ⟨1, _⟩ =>
        exact (dot_S4096x1024_S1024x256_S4096x256_1_0_0_1_n_n.lhsIdx_val_of_single rfl (ix2 p q) _).trans hk)
  have er : dot_S4096x1024_S1024x256_S4096x256_1_0_0_1_n_n.rhsIdx (ix2 p q)
      ((contrEquiv1 dot_S4096x1024_S1024x256_S4096x256_1_0_0_1_n_n 1024 rfl rfl).symm k) = ix2 k q :=
    funext fun a => Fin.ext (by
      match a with
      | ⟨0, _⟩ =>
        exact (dot_S4096x1024_S1024x256_S4096x256_1_0_0_1_n_n.rhsIdx_val_of_single rfl (ix2 p q) _).trans hk
      | ⟨1, _⟩ =>
        show (dot_S4096x1024_S1024x256_S4096x256_1_0_0_1_n_n.rhsIdx (ix2 p q) _ 1).val = q.val
        unfold DotDims.rhsIdx
        rw [dif_neg (show ¬(1 : Fin S1024x256.rank) ∈ dot_S4096x1024_S1024x256_S4096x256_1_0_0_1_n_n.rhsBatch by decide),
          dif_pos (show (1 : Fin S1024x256.rank) ∈ dot_S4096x1024_S1024x256_S4096x256_1_0_0_1_n_n.rhsNonContracting by decide)]
        rfl)
  rw [el, er]

/-- The body's stored value at entry (p, q) of its block: the first pass over the block of x plus the second pass
    over the residual of the block against itself. -/
theorem payload_apply (v0 : Vec Ideal S4096x1024 .f32) (v5 : Vec Ideal S1024x256 .bf16) (p : Fin 4096) (q : Fin 256) :
    Gen.k0_pay1 (F := Ideal) v0 v5 (ix2 p q)
      = (∑ k : Fin 1024, v0 (ix2 p k) * v5 (ix2 k q)) + ∑ k : Fin 1024, (v0 (ix2 p k) - v0 (ix2 p k)) * v5 (ix2 k q) := by
  unfold Gen.k0_pay1
  show FloatOps.addf (matmul _ none _ _ _ (ix2 p q)) (matmul _ none _ _ _ (ix2 p q)) = _
  rw [matmul_zero_apply, matmul_zero_apply, shapeCast_self]
  rfl

end Cert.BinaryDense

end
-- ==== Proof.Spec.lean ====
/-
  The function both programs compute, and the one law that joins them.

  Entry (r, c) of the result is the inner product of row r of x with column c of the SIGN PATTERN of w
  (each entry of w replaced by -1, 0 or 1 according to its order against zero).

  The kernel splits x into a leading part and a residual, x = hi + (x - hi), and multiplies each part by the sign
  pattern. With exact arithmetic the leading part is x itself, so the residual is x - x, which is zero for every REAL
  x (on the extended reals it is not: an infinity minus itself is not zero, which is why finiteness of x is used).
  A zero residual contributes a sum of zeros, so the two-pass result is the one-pass inner product.
-/
import Idealize.ShloMosaic.PureOps.Ideal.Laws
import Idealize.ShloMosaic.Lib.ValueIdx

noncomputable section

namespace Cert.BinaryDense

open Idealize.ShloMosaic Idealize.ShloMosaic.ValueIdx
open scoped BigOperators

/-- The inner product of row `r` of `x` with column `c` of `s`, over the 1024 contracted positions. -/
def rowDot (x : (⟨2, ![65536, 1024]⟩ : Shape).Idx → EReal) (s : (⟨2, ![1024, 256]⟩ : Shape).Idx → EReal)
    (r : Fin 65536) (c : Fin 256) : EReal :=
  ∑ k : Fin 1024, x (ix2 r k) * s (ix2 k c)

/-- The whole result array: `x` times the sign pattern of `w`, index by index. -/
def dense (x : (⟨2, ![65536, 1024]⟩ : Shape).Idx → EReal) (w : (⟨2, ![1024, 256]⟩ : Shape).Idx → EReal) :
    (⟨2, ![65536, 256]⟩ : Shape).Idx → EReal :=
  fun i => rowDot x (fun j => Ideal.sign (w j)) (i 0) (i 1)

theorem dense_ix2 (x : (⟨2, ![65536, 1024]⟩ : Shape).Idx → EReal) (w : (⟨2, ![1024, 256]⟩ : Shape).Idx → EReal)
    (r : Fin 65536) (c : Fin 256) :
    dense x w (ix2 r c) = ∑ k : Fin 1024, x (ix2 r k) * Ideal.sign (w (ix2 k c)) := rfl

/-- The residual of a real number against itself is zero, so its product with anything is zero. -/
theorem residual_mul_eq_zero {a : EReal} (ha : ∃ r : ℝ, a = (r : EReal)) (s : EReal) : (a - a) * s = 0 := by
  obtain ⟨r, rfl⟩ := ha
  rw [← EReal.coe_sub, sub_self, EReal.coe_zero, zero_mul]

/-- THE LAW: for real `a k`, a first pass over `a` plus a second pass over the residuals `a k - a k` is the first
    pass alone. -/
theorem two_pass_eq_one_pass {ι : Type} [Fintype ι] (a s : ι → EReal) (ha : ∀ k, ∃ r : ℝ, a k = (r : EReal)) :
    (∑ k, a k * s k) + (∑ k, (a k - a k) * s k) = ∑ k, a k * s k := by
  have h0 : ∀ k, (a k - a k) * s k = 0 := fun k => residual_mul_eq_zero (ha k) (s k)
  simp only [h0, Finset.sum_const_zero, add_zero]

end Cert.BinaryDense

end
-- ==== Proof.Point.lean ====
/-
  One output block, entry by entry.

  If a 4096 x 1024 block holds rows `row p` of a real array X, and the 1024 x 256 weight block holds the sign pattern
  of W, then the body's stored value at (p, q) is entry (row p, q) of X times the sign pattern of W: the first pass is
  that inner product, and the second pass, over residuals of reals against themselves, adds zero.
-/
import proofs.«130292_j35923106464285_2_alg».proof.Proof.Payload
import proofs.«130292_j35923106464285_2_alg».proof.Proof.Spec

noncomputable section

namespace Cert.BinaryDense

open Idealize.ShloMosaic Idealize.ShloMosaic.ValueIdx Cert.KernelIdeal
open scoped BigOperators

theorem point_value (X : (⟨2, ![65536, 1024]⟩ : Shape).Idx → EReal) (W : (⟨2, ![1024, 256]⟩ : Shape).Idx → EReal)
    (x0 : Vec Ideal S4096x1024 .f32) (x1 : Vec Ideal S1024x256 .bf16) (row : Fin 4096 → Fin 65536)
    (hx : ∀ (p : Fin 4096) (k : Fin 1024), x0 (ix2 p k) = X (ix2 (row p) k))
    (hw : ∀ (k : Fin 1024) (q : Fin 256), x1 (ix2 k q) = Ideal.sign (W (ix2 k q)))
    (hreal : ∀ i, ∃ r : ℝ, X i = (r : EReal)) (p : Fin 4096) (q : Fin 256) :
    Gen.k0_pay1 (F := Ideal) x0 x1 (ix2 p q) = dense X W (ix2 (row p) q) := by
  rw [payload_apply, dense_ix2]
  have e1 : ∀ k : Fin 1024, x0 (ix2 p k) * x1 (ix2 k q) = X (ix2 (row p) k) * Ideal.sign (W (ix2 k q)) :=
    fun k => by rw [hx, hw]
  have e2 : ∀ k : Fin 1024, (x0 (ix2 p k) - x0 (ix2 p k)) * x1 (ix2 k q)
      = (X (ix2 (row p) k) - X (ix2 (row p) k)) * Ideal.sign (W (ix2 k q)) :=
    fun k => by rw [hx, hw]
  rw [Finset.sum_congr rfl fun k _ => e1 k, Finset.sum_congr rfl fun k _ => e2 k]
  exact two_pass_eq_one_pass (fun k => X (ix2 (row p) k)) (fun k => Ideal.sign (W (ix2 k q))) (fun k => hreal _)

end Cert.BinaryDense

end
-- ==== Proof.Blocks.lean ====
/-
  From blocks to the whole result array.

  The grid has 16 points. Point t takes rows 4096 t .. 4096 t + 4095 of x (all 1024 columns), the whole weight array
  — which the program has replaced, before the grid runs, by the sign pattern of w — and writes rows
  4096 t .. 4096 t + 4095 of the result (all 256 columns). So what point t writes back is exactly block t of
  `dense x w`; the 16 blocks cover every row (row r lies in block r / 4096); hence the array ends as `dense x w`.
-/
import proofs.«130292_j35923106464285_2_alg».proof.Proof.Gen.KernelIdeal.Value
import proofs.«130292_j35923106464285_2_alg».proof.Proof.Point
import Idealize.ShloMosaic.Lib.Pipeline.Value
import Idealize.ShloMosaic.Lib.StableHlo.Run

noncomputable section

namespace Cert.BinaryDense

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index of each window at point `t`: x and the result move down one block of rows per point, the
    weights stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row of the whole array that row `p` of point `t`'s block is. -/
def rowOf (t : Fin cfg0.N) (p : Fin 4096) : Fin 65536 :=
  ⟨t.val * 4096 + p.val, by have h1 : t.val < 16 := lt_of_lt_of_eq t.isLt N_0; have h2 := p.isLt; omega⟩

/-- The weight array as the grid finds it: the sign pattern of the second argument. -/
theorem weights_eq (c : Dev nD) :
    (V m c main_v1 : S1024x256.Idx → EReal) = fun j => Ideal.sign (m ((c : Thread nD τ).loc main_arg1) j) := by
  dsimp only [Gen.V, Gen.hostOps0]
  after_results
  rfl

/-- Point `t`'s block of x, entry (p, k): row `rowOf t p`, column `k` of the first argument. -/
theorem x_block (c : Dev nD) (t : Fin cfg0.N) (p : Fin 4096) (k : Fin 1024) :
    iblk m c 0 t (ix2 p k) = m ((c : Thread nD τ).loc main_arg0) (ix2 (rowOf t p) k) := by
  show V m c main_arg0 (((cfg0.win 0).blk t).view.emb (ix2 p k)) = _
  have he : ((cfg0.win 0).blk t).view.emb (ix2 p k) = ix2 (rowOf t p) k := by
    obtain ⟨e0, e1, -⟩ := block_indices t
    funext a; apply Fin.ext
    match a with
    | ⟨0, _⟩ => show win0_0.index t (0 : Fin 2) * 4096 + 1 * p.val = t.val * 4096 + p.val; omega
    | ⟨1, _⟩ => show win0_0.index t (1 : Fin 2) * 1024 + 1 * k.val = k.val; omega
  rw [he, V_main_arg0]

/-- Point `t`'s block of the weights, entry (k, q): the sign of entry (k, q) of the second argument. -/
theorem w_block (c : Dev nD) (t : Fin cfg0.N) (k : Fin 1024) (q : Fin 256) :
    iblk m c 1 t (ix2 k q) = Ideal.sign (m ((c : Thread nD τ).loc main_arg1) (ix2 k q)) := by
  show V m c main_v1 (((cfg0.win 1).blk t).view.emb (ix2 k q)) = _
  have he : ((cfg0.win 1).blk t).view.emb (ix2 k q) = ix2 k q := by
    obtain ⟨-, -, e2, e3, -⟩ := block_indices t
    funext a; apply Fin.ext
    match a with
    | ⟨0, _⟩ => show win0_1.index t (0 : Fin 2) * 1024 + 1 * k.val = k.val; omega
    | ⟨1, _⟩ => show win0_1.index t (1 : Fin 2) * 256 + 1 * q.val = q.val; omega
  rw [he, weights_eq]

/-- WHAT POINT `t` WRITES BACK is block `t` of `dense` of the two arguments, when the first argument is real. -/
theorem flushed_eq (c : Dev nD)
    (hreal : ∀ i, ∃ r : ℝ, m ((c : Thread nD τ).loc main_arg0) i = (r : EReal)) (t : Fin cfg0.N) :
    (dats m 0 c).flushed 2 t = ((cfg0.win 2).blk t).view.read (Elt Ideal)
      (dense (m ((c : Thread nD τ).loc main_arg0)) (m ((c : Thread nD τ).loc main_arg1))) := by
  rw [Cert.KernelIdeal.Value.flushed2]
  unfold out0_2
  rw [View.canon_unit_zero zero_offsets]
  simp only [View.ld_unit_zero (S := S4096x1024) zero_offsets, View.ld_unit_zero (S := S1024x256) zero_offsets]
  funext j
  obtain ⟨p, q, rfl⟩ : ∃ (p : Fin 4096) (q : Fin 256), j = ix2 p q := ⟨j 0, j 1, eq_ix2 j⟩
  show k0_pay1 (iblk m c 0 t) (iblk m c 1 t) (ix2 p q)
    = dense (m ((c : Thread nD τ).loc main_arg0)) (m ((c : Thread nD τ).loc main_arg1)) (((cfg0.win 2).blk t).view.emb (ix2 p q))
  have he : ((cfg0.win 2).blk t).view.emb (ix2 p q) = ix2 (rowOf t p) q := by
    obtain ⟨-, -, -, -, e4, e5⟩ := block_indices t
    funext a; apply Fin.ext
    match a with
    | ⟨0, _⟩ => show win0_2.index t (0 : Fin 2) * 4096 + 1 * p.val = t.val * 4096 + p.val; omega
    | ⟨1, _⟩ => show win0_2.index t (1 : Fin 2) * 256 + 1 * q.val = q.val; omega
  rw [he]
  exact point_value _ _ (iblk m c 0 t) (iblk m c 1 t) (rowOf t) (x_block m c t) (w_block m c t) hreal p q

/-- An index of the result is in point `t`'s block iff each coordinate is in the block's range on its axis. -/
theorem mem_blk (t : Fin cfg0.N) (i : S65536x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v2).slice (win0_2.rect t)).set ↔ _
  rw [View.set_slice_whole, Rect.mem_set_unit]
  exact Iff.rfl

/-- Every index of the result lies in some point's block: row r in block r / 4096. -/
theorem cover (i : S65536x256.Idx) :
    ∃ t : Fin cfg0.N, (cfg0.win 2).flush t = true ∧ i ∈ ((cfg0.win 2).blk t).view.set := by
  have hi0 : (i 0).val < 65536 := (i 0).isLt
  have hi1 : (i 1).val < 256 := (i 1).isLt
  have hlt : (i 0).val / 4096 < cfg0.N := lt_of_lt_of_eq (by omega : (i 0).val / 4096 < 16) N_0.symm
  obtain ⟨-, -, -, -, e4, e5⟩ := block_indices ⟨(i 0).val / 4096, hlt⟩
  refine ⟨⟨(i 0).val / 4096, hlt⟩, flush0_2 _, ?_⟩
  rw [mem_blk]
  intro a
  match a with
  | ⟨0, _⟩ =>
    show win0_2.index ⟨(i 0).val / 4096, hlt⟩ (0 : Fin 2) * 4096 ≤ (i 0).val
      ∧ (i 0).val < win0_2.index ⟨(i 0).val / 4096, hlt⟩ (0 : Fin 2) * 4096 + 4096
    rw [e4]
    show (i 0).val / 4096 * 4096 ≤ (i 0).val ∧ (i 0).val < (i 0).val / 4096 * 4096 + 4096
    omega
  | ⟨1, _⟩ =>
    show win0_2.index ⟨(i 0).val / 4096, hlt⟩ (1 : Fin 2) * 256 ≤ (i 1).val
      ∧ (i 1).val < win0_2.index ⟨(i 0).val / 4096, hlt⟩ (1 : Fin 2) * 256 + 256
    rw [e5]
    omega

/-- THE RESULT ARRAY after the run is `dense` of the two arguments, when the first is real. -/
theorem final (c : Dev nD) (hreal : ∀ i, ∃ r : ℝ, m ((c : Thread nD τ).loc main_arg0) i = (r : EReal)) :
    (dats m 0 c).arrAt 2 cfg0.N
      = dense (m ((c : Thread nD τ).loc main_arg0)) (m ((c : Thread nD τ).loc main_arg1)) :=
  (dats m 0 c).arrAt_eq_of_cover 2 _ (fun t _ => flushed_eq m c hreal t) cover

/-- The kernel's run, read: the result array at `dense` of the arguments, the arguments unchanged. -/
theorem run (hreal : ∀ (c : Dev nD) i, ∃ r : ℝ, m ((c : Thread nD τ).loc main_arg0) i = (r : EReal)) :
    θ_run defs (onTc (τ := τ) (main (F := Ideal))) ⟨m, fun _ => 0, ρ⟩ fun r => ∀ c : Dev nD,
      r.2.mem ((c : Thread nD τ).loc main_v2)
        = dense (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hreal c)), (h c).2⟩)
    (Cert.KernelIdeal.Value.run_blocks m ρ)

end Cert.BinaryDense

end
-- ==== Proof.RefSide.lean ====
/-
  The reference computes `dense`: its product of x with the sign pattern of w, read at an index, is the inner
  product of a row of x with a column of the sign pattern, over the contracted axis.
-/
import proofs.«130292_j35923106464285_2_alg».proof.Proof.Gen.ReferenceIdeal.Read
import proofs.«130292_j35923106464285_2_alg».proof.Proof.Spec

noncomputable section

namespace Cert.BinaryDense

open Idealize.ShloMosaic Idealize.ShloMosaic.ValueIdx Cert.ReferenceIdeal
open scoped BigOperators

/-- The reference's result, as a function of its two arguments, is `dense` of them: at (r, c) both are the sum over
    `k` of `x (r, k)` times the sign of `w (k, c)`. -/
theorem reference_eq_dense (x0 : (⟨S65536x1024, .f32⟩ : BufTy).Contents (Elt Ideal))
    (x1 : (⟨S1024x256, .f32⟩ : BufTy).Contents (Elt Ideal)) :
    Read.val_main_v1 (F := Ideal) x0 x1 = dense x0 x1 := by
  funext i
  obtain ⟨r, c, rfl⟩ : ∃ (r : Fin 65536) (c : Fin 256), i = ix2 r c := ⟨i 0, i 1, eq_ix2 i⟩
  rw [Read.val_main_v1_apply, dense_ix2]
  refine Finset.sum_congr rfl fun k _ => ?_
  have el : Read.lidx_main_v1 (ix2 r c) k = ix2 r k :=
    funext fun a => Fin.ext (by match a with | ⟨0, _⟩ => rfl | ⟨1, _⟩ => rfl)
  have er : Read.ridx_main_v1 (ix2 r c) k = ix2 k c :=
    funext fun a => Fin.ext (by match a with | ⟨0, _⟩ => rfl | ⟨1, _⟩ => rfl)
  rw [el, er]
  rfl

end Cert.BinaryDense

end
-- ==== Proof.Finite.lean ====
/-
  From the precondition to real entries of x.

  The precondition says, of each argument array, that the absolute value of every entry is below +infinity. An
  extended real whose absolute value max(a, -a) is below the top element is neither infinity, so it is a real number.
-/
import proofs.«130292_j35923106464285_2_alg».proof.Pre_finite_inputs
import Idealize.ShloMosaic.PureOps.Ideal.Laws
import Idealize.ShloMosaic.Lib.ReduceAll
import Idealize.ShloMosaic.Lib.ValueIdx

noncomputable section

namespace Cert.BinaryDense

open Idealize.ShloMosaic

instance : Subsingleton Cert.Pre_finite_inputs.S_.Idx := ⟨fun a b => funext fun d => d.elim0⟩

/-- The f32 pattern of +infinity denotes the top extended real. -/
theorem ofBits_pos_inf : Ideal.ofBits .f32 0x7F800000#32 = (⊤ : EReal) := by
  simp [Ideal.ofBits, Ideal.ieee]

/-- An extended real whose absolute value is below the top element is a real number. -/
theorem exists_real_of_abs_lt_top (a : EReal) (h : max a (-a) < (⊤ : EReal)) : ∃ r : ℝ, a = (r : EReal) := by
  induction a using EReal.rec with
  | bot => simp at h
  | top => simp at h
  | coe r => exact ⟨r, rfl⟩

/-- Under the precondition every entry of the first argument array is a real number. -/
theorem x_real [Cert.Pre_finite_inputs.Facts]
    (x : FVec Ideal Cert.Pre_finite_inputs.S65536x1024 .f32) (w : FVec Ideal Cert.Pre_finite_inputs.S1024x256 .f32)
    (h : Cert.Pre_finite_inputs.fn (F := Ideal) x w = fun _ => 1#1) (i : Cert.Pre_finite_inputs.S65536x1024.Idx) :
    ∃ r : ℝ, x i = (r : EReal) := by
  have h0 := congrFun h ValueIdx.ix0
  dsimp only [Cert.Pre_finite_inputs.fn] at h0
  obtain ⟨h1, -⟩ := IntOp.andi_eq_one.1 h0
  have h2 := Host.reduce_andi_all _ _ _ _ _ h1 i
  apply exists_real_of_abs_lt_top
  have h3 : BitVec.ofBool (decide (max (x i) (-(x i)) < Ideal.ofBits .f32 0x7F800000#32)) = 1#1 := h2
  rw [ofBits_pos_inf] at h3
  by_contra hn
  rw [decide_eq_false hn] at h3
  exact absurd h3 (by decide)

end Cert.BinaryDense

end
-- ==== Proof.lean ====
/-
  The kernel multiplies x (65536 x 1024) by the sign pattern of w (1024 x 256) in two passes — x itself, then the
  residual of x against its own leading part — and adds the passes; the reference multiplies x by the sign pattern
  of w once.

  With exact arithmetic a change of number format is the identity, so the leading part of x is x, the residual is
  x - x, and for REAL x that is zero: the second pass adds a sum of zeros (Proof/Spec.lean, the one law used; it is
  where finiteness of x enters, since an infinity minus itself is not zero on the extended reals). Hence both programs
  end with entry (r, c) equal to the sum over k of x(r, k) * sign(w(k, c)).

  Proof/Payload.lean reads the kernel body's arithmetic at an entry of its block; Proof/Point.lean joins it to the
  law; Proof/Blocks.lean carries the 16 row blocks to the whole array; Proof/RefSide.lean reads the reference at an
  entry; Proof/Finite.lean takes real entries of x from the precondition. The frames are the generated ones; the one
  recorded rewrite (a round trip through the narrow format replaced by its argument) holds by definition at both
  readings.
-/
import proofs.«130292_j35923106464285_2_alg».proof.Defs
import proofs.«130292_j35923106464285_2_alg».proof.Proof.Gen.Kernel
import proofs.«130292_j35923106464285_2_alg».proof.Proof.Gen.Kernel.Skeleton
import proofs.«130292_j35923106464285_2_alg».proof.Proof.Gen.Kernel.Launch
import proofs.«130292_j35923106464285_2_alg».proof.Proof.Gen.Kernel.Points
import proofs.«130292_j35923106464285_2_alg».proof.Proof.Gen.Kernel.Frame
import proofs.«130292_j35923106464285_2_alg».proof.Proof.Gen.KernelIdeal
import proofs.«130292_j35923106464285_2_alg».proof.Proof.Gen.KernelIdeal.Skeleton
import proofs.«130292_j35923106464285_2_alg».proof.Proof.Gen.KernelIdeal.Launch
import proofs.«130292_j35923106464285_2_alg».proof.Proof.Gen.KernelIdeal.Points
import proofs.«130292_j35923106464285_2_alg».proof.Proof.Gen.KernelIdeal.Frame
import proofs.«130292_j35923106464285_2_alg».proof.Proof.Gen.ReferenceIdeal
import proofs.«130292_j35923106464285_2_alg».proof.Proof.Gen.Pre_finite_inputs
import proofs.«130292_j35923106464285_2_alg».proof.Proof.Gen.KernelIdeal.Value
import proofs.«130292_j35923106464285_2_alg».proof.Proof.Gen.ReferenceIdeal.Run
import proofs.«130292_j35923106464285_2_alg».proof.Proof.Gen.ReferenceIdeal.Read
import proofs.«130292_j35923106464285_2_alg».proof.Proof.Blocks
import proofs.«130292_j35923106464285_2_alg».proof.Proof.RefSide
import proofs.«130292_j35923106464285_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read with exact arithmetic. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The one recorded rewrite: narrowing a block of x and widening it back was replaced by the block. With exact
    arithmetic that is the identity; with machine words it is the rounding through the narrow format, as stated. -/
theorem preserves : Cert.preserves_Kernel_KernelIdeal :=
  IdealRules.truncf_extf.statement Cert.KernelIdeal.S4096x1024 .f32 .bf16

/-- With exact arithmetic and finite inputs, the kernel and the reference, run from memories that agree on x and w,
    both end with the result array `dense x w`. -/
theorem algebraic : Cert.algebraic_KernelIdeal_ReferenceIdeal := by
  intro m ρ m' ρ' hpre hagree
  have hreal : ∀ (c : Dev Cert.KernelIdeal.nD) i,
      ∃ r : ℝ, m ((c : Thread Cert.KernelIdeal.nD Cert.KernelIdeal.τ).loc Cert.KernelIdeal.main_arg0) i = (r : EReal) :=
    fun c i => Cert.BinaryDense.x_real _ _ (hpre c) i
  refine ⟨fun c => Cert.BinaryDense.dense
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.BinaryDense.run m ρ hreal, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v1_eq]
  exact Cert.BinaryDense.reference_eq_dense _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
